-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 70
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S128x256, .f32⟩
  | .hbm, ⟨39, _⟩ => ⟨S1x256, .f32⟩
  | .hbm, ⟨40, _⟩ => ⟨S50000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S256x128, .f32⟩
  | .hbm, ⟨67, _⟩ => ⟨S256x128, .f32⟩
  | .hbm, ⟨68, _⟩ => ⟨S1x128, .f32⟩
  | .hbm, ⟨69, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S256x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The kernel program's run, with every buffer named.

  The program is four segments: host operations, the first kernel's grid, host operations, the second kernel's grid. From
  any launch memory with zero counters every weakly fair execution passes through them in order and ends with every
  buffer that is not a staging buffer holding the last boundary's contents: the launch contents pushed through the first
  stretch of host operations, the first grid's write-backs, the second stretch, the second grid's write-backs. The
  statement keeps ALL those buffers, so that a value proof can read the result buffer off it as well as the arguments.
-/
import proofs.«161969_j40956808134940_1_alg».proof.Proof.Gen.KernelIdeal.Frame

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with each buffer outside the staging memory at the last
    boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelRun

end
-- ==== Proof.Layer.lean ====
/-
  One dense layer of a mean-aggregating graph convolution, entry by entry, over the extended reals.

  Given the aggregated neighbour features `mean` and the node features `x`, both [N, K], two weight matrices
  [K, C] (already transposed for the product) and a bias laid out as one row [1, C], the layer's entry (r, c) is
      Σₖ mean(r,k) · wl(k,c)  +  Σₖ x(r,k) · wr(k,c)  +  row(0,c).
  `lin` is that entry, `out` the [N, C] array of all of them, `hid` the same array clamped below at 0
  (the rectifier between the two layers).
-/
import Idealize.ShloMosaic.PureOps.Ideal
import Idealize.ShloMosaic.Lib.ValueIdx

noncomputable section

namespace Cert.Sage

open Idealize.ShloMosaic Idealize.ShloMosaic.ValueIdx

variable {N K C : ℕ}

/-- Entry (r, c) of the layer: the two products' entries and the bias of column c, added in that order. -/
def lin (mean x : (⟨2, ![N, K]⟩ : Shape).Idx → EReal) (wl wr : (⟨2, ![K, C]⟩ : Shape).Idx → EReal)
    (row : (⟨2, ![1, C]⟩ : Shape).Idx → EReal) (r : Fin N) (c : Fin C) : EReal :=
  (∑ k : Fin K, mean (ix2 r k) * wl (ix2 k c)) + (∑ k : Fin K, x (ix2 r k) * wr (ix2 k c)) + row (ix2 (0 : Fin 1) c)

/-- The layer as an [N, C] array. -/
def out (mean x : (⟨2, ![N, K]⟩ : Shape).Idx → EReal) (wl wr : (⟨2, ![K, C]⟩ : Shape).Idx → EReal)
    (row : (⟨2, ![1, C]⟩ : Shape).Idx → EReal) : (⟨2, ![N, C]⟩ : Shape).Idx → EReal :=
  fun i => lin mean x wl wr row (i 0) (i 1)

/-- The layer followed by the rectifier, as an [N, C] array. -/
def hid (mean x : (⟨2, ![N, K]⟩ : Shape).Idx → EReal) (wl wr : (⟨2, ![K, C]⟩ : Shape).Idx → EReal)
    (row : (⟨2, ![1, C]⟩ : Shape).Idx → EReal) : (⟨2, ![N, C]⟩ : Shape).Idx → EReal :=
  fun i => max (lin mean x wl wr row (i 0) (i 1)) 0

theorem out_ix2 (mean x : (⟨2, ![N, K]⟩ : Shape).Idx → EReal) (wl wr : (⟨2, ![K, C]⟩ : Shape).Idx → EReal)
    (row : (⟨2, ![1, C]⟩ : Shape).Idx → EReal) (r : Fin N) (c : Fin C) :
    out mean x wl wr row (ix2 r c) = lin mean x wl wr row r c := rfl

theorem hid_ix2 (mean x : (⟨2, ![N, K]⟩ : Shape).Idx → EReal) (wl wr : (⟨2, ![K, C]⟩ : Shape).Idx → EReal)
    (row : (⟨2, ![1, C]⟩ : Shape).Idx → EReal) (r : Fin N) (c : Fin C) :
    hid mean x wl wr row (ix2 r c) = max (lin mean x wl wr row r c) 0 := rfl

/-- Adding the bias before the second product or after it is the same sum: addition on the extended reals is
    commutative and associative (no finiteness is needed). -/
theorem lin_bias_first (mean x : (⟨2, ![N, K]⟩ : Shape).Idx → EReal) (wl wr : (⟨2, ![K, C]⟩ : Shape).Idx → EReal)
    (row : (⟨2, ![1, C]⟩ : Shape).Idx → EReal) (r : Fin N) (c : Fin C) :
    (∑ k : Fin K, mean (ix2 r k) * wl (ix2 k c)) + row (ix2 (0 : Fin 1) c) + (∑ k : Fin K, x (ix2 r k) * wr (ix2 k c))
      = lin mean x wl wr row r c := by
  unfold lin
  exact add_right_comm _ _ _

/-- An entry depends only on row r of the two feature arrays, column c of the two weight matrices and entry c of the
    bias row: arrays that agree there give the same entry (a row tile of the features gives its rows' entries). -/
theorem lin_rows {P : ℕ} (mean x : (⟨2, ![N, K]⟩ : Shape).Idx → EReal) (wl wr : (⟨2, ![K, C]⟩ : Shape).Idx → EReal)
    (row : (⟨2, ![1, C]⟩ : Shape).Idx → EReal) (mean' x' : (⟨2, ![P, K]⟩ : Shape).Idx → EReal)
    (wl' wr' : (⟨2, ![K, C]⟩ : Shape).Idx → EReal) (row' : (⟨2, ![1, C]⟩ : Shape).Idx → EReal)
    (p : Fin P) (r : Fin N) (c : Fin C)
    (h0 : ∀ k : Fin K, mean' (ix2 p k) = mean (ix2 r k)) (h1 : ∀ k : Fin K, x' (ix2 p k) = x (ix2 r k))
    (h2 : ∀ k : Fin K, wl' (ix2 k c) = wl (ix2 k c)) (h3 : ∀ k : Fin K, wr' (ix2 k c) = wr (ix2 k c))
    (h4 : row' (ix2 (0 : Fin 1) c) = row (ix2 (0 : Fin 1) c)) :
    lin mean' x' wl' wr' row' p c = lin mean x wl wr row r c := by
  unfold lin
  rw [h4]
  simp only [h0, h1, h2, h3]

end Cert.Sage

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.KernelTiles.lean ====
/-
  What one grid point of each kernel computes, read at a coordinate of its output tile.

  Both kernel bodies take a tile of 2000 rows of the aggregated features and of the node features, the two whole
  weight matrices and the bias row, round everything to bf16 (the identity on the extended reals), multiply into zero
  accumulators, add the two products and then the bias row stretched over the rows; the first kernel clamps the result
  below at 0. At (p, q) that is the layer's entry `Sage.lin` of the tile's rows: a product into a zero accumulator is
  the sum over the contracted coordinate, and the stretched row reads its one row.
-/
import proofs.«161969_j40956808134940_1_alg».proof.Proof.Gen.KernelIdeal.Skeleton
import proofs.«161969_j40956808134940_1_alg».proof.Proof.Layer
import proofs.«161969_j40956808134940_1_alg».proof.Proof.LibColumnBlocks
import proofs.«161969_j40956808134940_1_alg».proof.Proof.LibRowOps

noncomputable section

namespace Cert.KernelTiles

open Idealize.ShloMosaic Idealize.ShloMosaic.ValueIdx Cert.KernelIdeal Cert.KernelIdeal.Gen

/-- In the first kernel's product the left operand's row coordinate is the result's. -/
theorem dot0_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

/-- … and the right operand's column coordinate is the result's. -/
theorem dot0_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The same two facts for the second kernel's product. -/
theorem dot1_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

theorem dot1_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- The first kernel's tile at (p, q): the layer's entry of the tile's rows, clamped below at 0. -/
theorem hidden_tile (x0 x1 : Vec Ideal S2000x128 .f32) (x2 x3 : Vec Ideal S128x256 .f32) (x4 : Vec Ideal S1x256 .f32)
    (p : Fin 2000) (q : Fin 256) :
    k0_pay1 (F := Ideal) x0 x1 x2 x3 x4 (ix2 p q) = max (Sage.lin x0 x1 x2 x3 x4 p q) 0 := by
  have e1 := LibColumnBlocks.matmul_zero_apply dot_S2000x128_S128x256_S2000x256_1_0_0_1_n_n rfl rfl rfl rfl dot0_row dot0_col
    (truncf .bf16 (shapeCast S2000x128 x0 shapeCasts_S2000x128_S2000x128) bitsLt_bf16_f32)
    (truncf .bf16 (shapeCast S128x256 x2 shapeCasts_S128x256_S128x256) bitsLt_bf16_f32) p q none
  have e2 := LibColumnBlocks.matmul_zero_apply dot_S2000x128_S128x256_S2000x256_1_0_0_1_n_n rfl rfl rfl rfl dot0_row dot0_col
    (truncf .bf16 x1 bitsLt_bf16_f32)
    (truncf .bf16 (shapeCast S128x256 x3 shapeCasts_S128x256_S128x256) bitsLt_bf16_f32) p q none
  have e3 := LibRowOps.bcast_1b_ab (shapeCast S1x256 x4 shapeCasts_S1x256_S1x256) broadcasts_S1x256_S2000x256 p q
  unfold k0_pay1 Sage.lin
  refine (congrArg₂ max (congrArg₂ (· + ·) (congrArg₂ (· + ·) e1 e2) e3) Ideal.ofBits_zero_f32).trans ?_
  simp only [truncf_apply, shapeCast_self]

/-- The second kernel's tile at (p, q): the layer's entry of the tile's rows. -/
theorem output_tile (x0 x1 : Vec Ideal S2000x256 .f32) (x2 x3 : Vec Ideal S256x128 .f32) (x4 : Vec Ideal S1x128 .f32)
    (p : Fin 2000) (q : Fin 128) :
    k1_pay1 (F := Ideal) x0 x1 x2 x3 x4 (ix2 p q) = Sage.lin x0 x1 x2 x3 x4 p q := by
  have e1 := LibColumnBlocks.matmul_zero_apply dot_S2000x256_S256x128_S2000x128_1_0_0_1_n_n rfl rfl rfl rfl dot1_row dot1_col
    (truncf .bf16 (shapeCast S2000x256 x0 shapeCasts_S2000x256_S2000x256) bitsLt_bf16_f32)
    (truncf .bf16 (shapeCast S256x128 x2 shapeCasts_S256x128_S256x128) bitsLt_bf16_f32) p q none
  have e2 := LibColumnBlocks.matmul_zero_apply dot_S2000x256_S256x128_S2000x128_1_0_0_1_n_n rfl rfl rfl rfl dot1_row dot1_col
    (truncf .bf16 (shapeCast S2000x256 x1 shapeCasts_S2000x256_S2000x256) bitsLt_bf16_f32)
    (truncf .bf16 (shapeCast S256x128 x3 shapeCasts_S256x128_S256x128) bitsLt_bf16_f32) p q none
  have e3 := LibRowOps.bcast_1b_ab (shapeCast S1x128 x4 shapeCasts_S1x128_S1x128) broadcasts_S1x128_S2000x128 p q
  unfold k1_pay1 Sage.lin
  refine (congrArg₂ (· + ·) (congrArg₂ (· + ·) e1 e2) e3).trans ?_
  simp only [truncf_apply, shapeCast_self]

end Cert.KernelTiles

end
-- ==== Proof.KernelBlocks0.lean ====
/-
  Region 0's result array as one function of the arrays the region finds.

  The grid has 25 points; point t takes rows 2000·t … 2000·t + 1999 of the aggregated features and of the node
  features, the two weight matrices and the bias row whole, and writes rows 2000·t … of the result. Each tile entry is
  the layer's entry of those rows, clamped below at 0, so every written block is the corresponding block of ONE [50000, 256] array; the 25
  blocks tile the array (row r lies in block r / 2000), hence the array ends holding that function everywhere.
-/
import proofs.«161969_j40956808134940_1_alg».proof.Proof.Gen.KernelIdeal.Frame
import proofs.«161969_j40956808134940_1_alg».proof.Proof.KernelTiles

set_option maxRecDepth 16384

noncomputable section

namespace Cert.KernelBlocks0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two feature windows and the result window sit at row block t, column block 0;
    the weights and the bias row at block (0, 0). -/
theorem maps : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 24 ∧ win0_5.index t (1 : Fin 2) = 0 :=
  (by decide +kernel : ∀ t : Fin grid0.N, _)

/-- Every row block is some point's. -/
theorem onto : ∀ q0 : Fin 25, ∃ t : Fin cfg0.N, win0_5.index t = ![q0.val, 0] :=
  (by decide +kernel : ∀ q0 : Fin 25, ∃ t : Fin grid0.N, win0_5.index t = ![q0.val, 0])

/-- Row p of point t's tiles is this row of the arrays. -/
def rowAt (t : Fin cfg0.N) (p : Fin 2000) : Fin 50000 :=
  ⟨win0_5.index t (0 : Fin 2) * 2000 + p.val, by have := (maps t).2.2.2.2.2.2.2.2.2.2.1; have := p.isLt; omega⟩

/-! ## The windows' blocks read at coordinates -/

theorem read_mean (c : Dev nD) (t : Fin cfg0.N) (p : Fin 2000) (k : Fin 128) :
    iblk0 V c 0 t (ix2 p k) = V c main_v22 (ix2 (rowAt t p) k) := by
  show V c main_v22 (((cfg0.win 0).blk t).view.emb (ix2 p k)) = V c main_v22 (ix2 (rowAt t p) k)
  refine congrArg (V c main_v22) ?_
  obtain ⟨e0, e1, -⟩ := maps t
  funext a; apply Fin.ext
  match a with
  | ⟨0, _⟩ => show win0_0.index t (0 : Fin 2) * 2000 + 1 * p.val = win0_5.index t (0 : Fin 2) * 2000 + p.val; omega
  | ⟨1, _⟩ => show win0_0.index t (1 : Fin 2) * 128 + 1 * k.val = k.val; omega

theorem read_x (c : Dev nD) (t : Fin cfg0.N) (p : Fin 2000) (k : Fin 128) :
    iblk0 V c 1 t (ix2 p k) = V c main_arg0 (ix2 (rowAt t p) k) := by
  show V c main_arg0 (((cfg0.win 1).blk t).view.emb (ix2 p k)) = V c main_arg0 (ix2 (rowAt t p) k)
  refine congrArg (V c main_arg0) ?_
  obtain ⟨-, -, e0, e1, -⟩ := maps t
  funext a; apply Fin.ext
  match a with
  | ⟨0, _⟩ => show win0_1.index t (0 : Fin 2) * 2000 + 1 * p.val = win0_5.index t (0 : Fin 2) * 2000 + p.val; omega
  | ⟨1, _⟩ => show win0_1.index t (1 : Fin 2) * 128 + 1 * k.val = k.val; omega

theorem read_wl (c : Dev nD) (t : Fin cfg0.N) (k : Fin 128) (q : Fin 256) :
    iblk0 V c 2 t (ix2 k q) = V c main_v23 (ix2 k q) := by
  show V c main_v23 (((cfg0.win 2).blk t).view.emb (ix2 k q)) = V c main_v23 (ix2 k q)
  refine congrArg (V c main_v23) ?_
  obtain ⟨-, -, -, -, e0, e1, -⟩ := maps t
  funext a; apply Fin.ext
  match a with
  | ⟨0, _⟩ => show win0_2.index t (0 : Fin 2) * 128 + 1 * k.val = k.val; omega
  | ⟨1, _⟩ => show win0_2.index t (1 : Fin 2) * 256 + 1 * q.val = q.val; omega

theorem read_wr (c : Dev nD) (t : Fin cfg0.N) (k : Fin 128) (q : Fin 256) :
    iblk0 V c 3 t (ix2 k q) = V c main_v24 (ix2 k q) := by
  show V c main_v24 (((cfg0.win 3).blk t).view.emb (ix2 k q)) = V c main_v24 (ix2 k q)
  refine congrArg (V c main_v24) ?_
  obtain ⟨-, -, -, -, -, -, e0, e1, -⟩ := maps t
  funext a; apply Fin.ext
  match a with
  | ⟨0, _⟩ => show win0_3.index t (0 : Fin 2) * 128 + 1 * k.val = k.val; omega
  | ⟨1, _⟩ => show win0_3.index t (1 : Fin 2) * 256 + 1 * q.val = q.val; omega

theorem read_bias (c : Dev nD) (t : Fin cfg0.N) (q : Fin 256) :
    iblk0 V c 4 t (ix2 (0 : Fin 1) q) = V c main_v25 (ix2 (0 : Fin 1) q) := by
  show V c main_v25 (((cfg0.win 4).blk t).view.emb (ix2 (0 : Fin 1) q)) = V c main_v25 (ix2 (0 : Fin 1) q)
  refine congrArg (V c main_v25) ?_
  obtain ⟨-, -, -, -, -, -, -, -, e0, e1, -⟩ := maps t
  funext a; apply Fin.ext
  match a with
  | ⟨0, _⟩ => show win0_4.index t (0 : Fin 2) * 1 + 1 * (0 : Fin 1).val = (0 : Fin 1).val; omega
  | ⟨1, _⟩ => show win0_4.index t (1 : Fin 2) * 256 + 1 * q.val = q.val; omega

/-- Entry (p, q) of point t's result block sits at row `rowAt t p`, column q of the array. -/
theorem result_at (t : Fin cfg0.N) (p : Fin 2000) (q : Fin 256) :
    ((cfg0.win 5).blk t).view.emb (ix2 p q) = ix2 (rowAt t p) q := by
  obtain ⟨-, -, -, -, -, -, -, -, -, -, -, e1⟩ := maps t
  funext a; apply Fin.ext
  match a with
  | ⟨0, _⟩ => show win0_5.index t (0 : Fin 2) * 2000 + 1 * p.val = win0_5.index t (0 : Fin 2) * 2000 + p.val; omega
  | ⟨1, _⟩ => show win0_5.index t (1 : Fin 2) * 256 + 1 * q.val = q.val; omega

/-! ## From the blocks to the array -/

/-- The region's result as one function of the arrays it finds. -/
abbrev result (c : Dev nD) : S50000x256.Idx → EReal :=
  Sage.hid (N := 50000) (K := 128) (C := 256) (V c main_v22) (V c main_arg0) (V c main_v23) (V c main_v24) (V c main_v25)

/-- What point t writes back is block t of that function. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero origin]
  simp only [View.ld_unit_zero (S := S2000x128) origin, View.ld_unit_zero (S := S128x256) origin, View.ld_unit_zero (S := S1x256) origin]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = result V c (((cfg0.win 5).blk t).view.emb (ix2 p q))
  rw [result_at t p q]
  refine (KernelTiles.hidden_tile (iblk0 V c 0 t) (iblk0 V c 1 t) (iblk0 V c 2 t) (iblk0 V c 3 t) (iblk0 V c 4 t) p q).trans ?_
  show _ = max (Sage.lin (V c main_v22) (V c main_arg0) (V c main_v23) (V c main_v24) (V c main_v25) (rowAt t p) q) 0
  refine congrArg (fun z : EReal => max z 0) (Sage.lin_rows (V c main_v22) (V c main_arg0) (V c main_v23) (V c main_v24) (V c main_v25)
    (iblk0 V c 0 t) (iblk0 V c 1 t) (iblk0 V c 2 t) (iblk0 V c 3 t) (iblk0 V c 4 t) p (rowAt t p) q
    (fun k => read_mean V c t p k) (fun k => read_x V c t p k) (fun k => read_wl V c t k q) (fun k => read_wr V c t k q)
    (read_bias V c t q))

/-- An index of the array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- Every index of the array is in some point's block: row r in block r / 2000. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The result array after the region: the layer and the rectifier of the arrays the region finds. -/
theorem array (c : Dev nD) : (dat0 V c).arrAt 5 cfg0.N = result V c :=
  (dat0 V c).arrAt_eq_of_cover 5 (result V c) (fun t _ => flushed_eq V c t) cover

end Cert.KernelBlocks0

end
-- ==== Proof.KernelBlocks1.lean ====
/-
  Region 1's result array as one function of the arrays the region finds.

  The grid has 25 points; point t takes rows 2000·t … 2000·t + 1999 of the aggregated features and of the node
  features, the two weight matrices and the bias row whole, and writes rows 2000·t … of the result. Each tile entry is
  the layer's entry of those rows, so every written block is the corresponding block of ONE [50000, 128] array; the 25
  blocks tile the array (row r lies in block r / 2000), hence the array ends holding that function everywhere.
-/
import proofs.«161969_j40956808134940_1_alg».proof.Proof.Gen.KernelIdeal.Frame
import proofs.«161969_j40956808134940_1_alg».proof.Proof.KernelTiles

set_option maxRecDepth 16384

noncomputable section

namespace Cert.KernelBlocks1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two feature windows and the result window sit at row block t, column block 0;
    the weights and the bias row at block (0, 0). -/
theorem maps : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 24 ∧ win1_5.index t (1 : Fin 2) = 0 :=
  (by decide +kernel : ∀ t : Fin grid1.N, _)

/-- Every row block is some point's. -/
theorem onto : ∀ q0 : Fin 25, ∃ t : Fin cfg1.N, win1_5.index t = ![q0.val, 0] :=
  (by decide +kernel : ∀ q0 : Fin 25, ∃ t : Fin grid1.N, win1_5.index t = ![q0.val, 0])

/-- Row p of point t's tiles is this row of the arrays. -/
def rowAt (t : Fin cfg1.N) (p : Fin 2000) : Fin 50000 :=
  ⟨win1_5.index t (0 : Fin 2) * 2000 + p.val, by have := (maps t).2.2.2.2.2.2.2.2.2.2.1; have := p.isLt; omega⟩

/-! ## The windows' blocks read at coordinates -/

theorem read_mean (c : Dev nD) (t : Fin cfg1.N) (p : Fin 2000) (k : Fin 256) :
    iblk1 V c 0 t (ix2 p k) = V c main_v45 (ix2 (rowAt t p) k) := by
  show V c main_v45 (((cfg1.win 0).blk t).view.emb (ix2 p k)) = V c main_v45 (ix2 (rowAt t p) k)
  refine congrArg (V c main_v45) ?_
  obtain ⟨e0, e1, -⟩ := maps t
  funext a; apply Fin.ext
  match a with
  | ⟨0, _⟩ => show win1_0.index t (0 : Fin 2) * 2000 + 1 * p.val = win1_5.index t (0 : Fin 2) * 2000 + p.val; omega
  | ⟨1, _⟩ => show win1_0.index t (1 : Fin 2) * 256 + 1 * k.val = k.val; omega

theorem read_x (c : Dev nD) (t : Fin cfg1.N) (p : Fin 2000) (k : Fin 256) :
    iblk1 V c 1 t (ix2 p k) = V c main_v26 (ix2 (rowAt t p) k) := by
  show V c main_v26 (((cfg1.win 1).blk t).view.emb (ix2 p k)) = V c main_v26 (ix2 (rowAt t p) k)
  refine congrArg (V c main_v26) ?_
  obtain ⟨-, -, e0, e1, -⟩ := maps t
  funext a; apply Fin.ext
  match a with
  | ⟨0, _⟩ => show win1_1.index t (0 : Fin 2) * 2000 + 1 * p.val = win1_5.index t (0 : Fin 2) * 2000 + p.val; omega
  | ⟨1, _⟩ => show win1_1.index t (1 : Fin 2) * 256 + 1 * k.val = k.val; omega

theorem read_wl (c : Dev nD) (t : Fin cfg1.N) (k : Fin 256) (q : Fin 128) :
    iblk1 V c 2 t (ix2 k q) = V c main_v46 (ix2 k q) := by
  show V c main_v46 (((cfg1.win 2).blk t).view.emb (ix2 k q)) = V c main_v46 (ix2 k q)
  refine congrArg (V c main_v46) ?_
  obtain ⟨-, -, -, -, e0, e1, -⟩ := maps t
  funext a; apply Fin.ext
  match a with
  | ⟨0, _⟩ => show win1_2.index t (0 : Fin 2) * 256 + 1 * k.val = k.val; omega
  | ⟨1, _⟩ => show win1_2.index t (1 : Fin 2) * 128 + 1 * q.val = q.val; omega

theorem read_wr (c : Dev nD) (t : Fin cfg1.N) (k : Fin 256) (q : Fin 128) :
    iblk1 V c 3 t (ix2 k q) = V c main_v47 (ix2 k q) := by
  show V c main_v47 (((cfg1.win 3).blk t).view.emb (ix2 k q)) = V c main_v47 (ix2 k q)
  refine congrArg (V c main_v47) ?_
  obtain ⟨-, -, -, -, -, -, e0, e1, -⟩ := maps t
  funext a; apply Fin.ext
  match a with
  | ⟨0, _⟩ => show win1_3.index t (0 : Fin 2) * 256 + 1 * k.val = k.val; omega
  | ⟨1, _⟩ => show win1_3.index t (1 : Fin 2) * 128 + 1 * q.val = q.val; omega

theorem read_bias (c : Dev nD) (t : Fin cfg1.N) (q : Fin 128) :
    iblk1 V c 4 t (ix2 (0 : Fin 1) q) = V c main_v48 (ix2 (0 : Fin 1) q) := by
  show V c main_v48 (((cfg1.win 4).blk t).view.emb (ix2 (0 : Fin 1) q)) = V c main_v48 (ix2 (0 : Fin 1) q)
  refine congrArg (V c main_v48) ?_
  obtain ⟨-, -, -, -, -, -, -, -, e0, e1, -⟩ := maps t
  funext a; apply Fin.ext
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-- Entry (p, q) of point t's result block sits at row `rowAt t p`, column q of the array. -/
theorem result_at (t : Fin cfg1.N) (p : Fin 2000) (q : Fin 128) :
    ((cfg1.win 5).blk t).view.emb (ix2 p q) = ix2 (rowAt t p) q := by
  obtain ⟨-, -, -, -, -, -, -, -, -, -, -, e1⟩ := maps t
  funext a; apply Fin.ext
  match a with
  | ⟨0, _⟩ => show win1_5.index t (0 : Fin 2) * 2000 + 1 * p.val = win1_5.index t (0 : Fin 2) * 2000 + p.val; omega
  | ⟨1, _⟩ => show win1_5.index t (1 : Fin 2) * 128 + 1 * q.val = q.val; omega

/-! ## From the blocks to the array -/

/-- The region's result as one function of the arrays it finds. -/
abbrev result (c : Dev nD) : S50000x128.Idx → EReal :=
  Sage.out (N := 50000) (K := 256) (C := 128) (V c main_v45) (V c main_v26) (V c main_v46) (V c main_v47) (V c main_v48)

/-- What point t writes back is block t of that function. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero origin]
  simp only [View.ld_unit_zero (S := S2000x256) origin, View.ld_unit_zero (S := S256x128) origin, View.ld_unit_zero (S := S1x128) origin]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = result V c (((cfg1.win 5).blk t).view.emb (ix2 p q))
  rw [result_at t p q]
  refine (KernelTiles.output_tile (iblk1 V c 0 t) (iblk1 V c 1 t) (iblk1 V c 2 t) (iblk1 V c 3 t) (iblk1 V c 4 t) p q).trans ?_
  show _ = Sage.lin (V c main_v45) (V c main_v26) (V c main_v46) (V c main_v47) (V c main_v48) (rowAt t p) q
  refine (Sage.lin_rows (V c main_v45) (V c main_v26) (V c main_v46) (V c main_v47) (V c main_v48)
    (iblk1 V c 0 t) (iblk1 V c 1 t) (iblk1 V c 2 t) (iblk1 V c 3 t) (iblk1 V c 4 t) p (rowAt t p) q
    (fun k => read_mean V c t p k) (fun k => read_x V c t p k) (fun k => read_wl V c t k q) (fun k => read_wr V c t k q)
    (read_bias V c t q))

/-- An index of the array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v49).slice (win1_5.rect t)).set ↔ _
  rw [View.set_slice_whole, Rect.mem_set_unit]
  exact Iff.rfl

/-- Every index of the array is in some point's block: row r in block r / 2000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The result array after the region: the layer of the arrays the region finds. -/
theorem array (c : Dev nD) : (dat1 V c).arrAt 5 cfg1.N = result V c :=
  (dat1 V c).arrAt_eq_of_cover 5 (result V c) (fun t _ => flushed_eq V c t) cover

end Cert.KernelBlocks1

end
-- ==== Proof.Aggregate.lean ====
/-
  Mean aggregation of node features over a list of directed edges, as one function of the features and the two
  endpoint lists.

  An edge list is a [2, 800000] integer array: row 0 holds each edge's source node, row 1 its destination. A negative
  source index counts from the end (50000 is added to it). Every edge carries its source's feature row to its
  destination, where the rows are summed; the sum is divided by the destination's in-degree, counted by summing a 1 per
  edge and clamped below at 1, so a node without incoming edges keeps the zero row. `mean128` and `mean256` are that
  function for feature rows of 128 and of 256 entries. Nothing here is ever read at an index: both programs apply
  exactly these operations, and the proof only needs that equal features give equal means.
-/
import proofs.«161969_j40956808134940_1_alg».proof.Proof.Gen.ReferenceIdeal
import Idealize.ShloMosaic.PureOps.Ideal

noncomputable section

namespace Cert.Aggregate

open Idealize.ShloMosaic Cert.ReferenceIdeal Cert.ReferenceIdeal.Gen

/-- The sources of the edges: row 0 of the edge list. -/
def srcOf (e : IVec S2x800000 32) : IVec S800000 32 :=
  shapeCast _ (extractStridedSlice S1x800000 ![0, 0] e slices_S2x800000_S1x800000_0_0) shapeCasts_S1x800000_S800000

/-- The destinations of the edges: row 1 of the edge list. -/
def dstOf (e : IVec S2x800000 32) : IVec S800000 32 :=
  shapeCast _ (extractStridedSlice S1x800000 ![1, 0] e slices_S2x800000_S1x800000_1_0) shapeCasts_S1x800000_S800000

/-- A node index with the negative ones counted from the end. -/
def wrap (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- Each node's number of incoming edges, at least 1. -/
def degree (dst : IVec S800000 32) : FVec Ideal S50000 .f32 :=
  maximumf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

/-- The mean of the incoming neighbours' feature rows, for rows of 128 entries. -/
def mean128 (x : FVec Ideal S50000x128 .f32) (src dst : IVec S800000 32) : FVec Ideal S50000x128 .f32 :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 x
        (broadcastInDim S800000x1 ![0] bcast_S800000_S800000x1_0 (wrap src))))
    (broadcastInDim S50000x128 ![0, 1] bcast_S50000x1_S50000x128_0_1
      (broadcastInDim S50000x1 ![0] bcast_S50000_S50000x1_0 (degree dst)))

/-- The same mean for rows of 256 entries. -/
def mean256 (h : FVec Ideal S50000x256 .f32) (src dst : IVec S800000 32) : FVec Ideal S50000x256 .f32 :=
  Host.divf
    (Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 dst)
      (Host.gather gather_S50000x256_S800000x1_S800000x256_1_0_n_n_0_1_1256 h
        (broadcastInDim S800000x1 ![0] bcast_S800000_S800000x1_0 (wrap src))))
    (broadcastInDim S50000x256 ![0, 1] bcast_S50000x1_S50000x256_0_1
      (broadcastInDim S50000x1 ![0] bcast_S50000_S50000x1_0 (degree dst)))

end Cert.Aggregate

end
-- ==== Proof.Model.lean ====
/-
  The two-layer network as one function of its eight arguments.

  Layer 1 takes the node features x [50000, 128] and their neighbour means, the weights W1l, W1r [256, 128] transposed,
  and the bias b1 as a row, and is followed by the rectifier: h [50000, 256]. Layer 2 takes h and ITS neighbour means
  over the same edges, W2l, W2r [128, 256] transposed and b2: the result [50000, 128]. Both programs are shown to end
  holding `model` of their arguments.
-/
import proofs.«161969_j40956808134940_1_alg».proof.Proof.Aggregate
import proofs.«161969_j40956808134940_1_alg».proof.Proof.Layer

noncomputable section

namespace Cert.Model

open Idealize.ShloMosaic Cert.ReferenceIdeal Cert.ReferenceIdeal.Gen Cert.Aggregate

/-- The hidden features: layer 1 and the rectifier. -/
def hidden (x : FVec Ideal S50000x128 .f32) (e : IVec S2x800000 32) (w1l : FVec Ideal S256x128 .f32) (b1 : FVec Ideal S256 .f32)
    (w1r : FVec Ideal S256x128 .f32) : FVec Ideal S50000x256 .f32 :=
  Sage.hid (N := 50000) (K := 128) (C := 256) (mean128 x (srcOf e) (dstOf e)) x
    (transpose S128x256 [1, 0] w1l transposes_S256x128_S128x256_1_0) (transpose S128x256 [1, 0] w1r transposes_S256x128_S128x256_1_0)
    (broadcastInDim S1x256 ![1] bcast_S256_S1x256_1 b1)

/-- Layer 2 of given hidden features. -/
def output (h : FVec Ideal S50000x256 .f32) (e : IVec S2x800000 32) (w2l : FVec Ideal S128x256 .f32) (b2 : FVec Ideal S128 .f32)
    (w2r : FVec Ideal S128x256 .f32) : FVec Ideal S50000x128 .f32 :=
  Sage.out (N := 50000) (K := 256) (C := 128) (mean256 h (srcOf e) (dstOf e)) h
    (transpose S256x128 [1, 0] w2l transposes_S128x256_S256x128_1_0) (transpose S256x128 [1, 0] w2r transposes_S128x256_S256x128_1_0)
    (broadcastInDim S1x128 ![1] bcast_S128_S1x128_1 b2)

/-- The network. -/
def model (x : FVec Ideal S50000x128 .f32) (e : IVec S2x800000 32) (w1l : FVec Ideal S256x128 .f32) (b1 : FVec Ideal S256 .f32)
    (w1r : FVec Ideal S256x128 .f32) (w2l : FVec Ideal S128x256 .f32) (b2 : FVec Ideal S128 .f32) (w2r : FVec Ideal S128x256 .f32) :
    FVec Ideal S50000x128 .f32 :=
  output (hidden x e w1l b1 w1r) e w2l b2 w2r

end Cert.Model

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.KernelHost.lean ====
/-
  The kernel program's result buffer is the model of its arguments.

  Read backwards from the end of the run: the second grid leaves layer 2 of the arrays it finds; the host operations
  before it computed those from the first grid's result (its neighbour means over the same edges, the transposed
  weights, the bias as a row) and left the first grid's result itself in place; the first grid left layer 1 with the
  rectifier of the arrays IT found; and the host operations before it computed those from the arguments. A bias
  vector recast as a one-row matrix is the same array as the vector placed as that row.
-/
import proofs.«161969_j40956808134940_1_alg».proof.Proof.Gen.KernelIdeal.Frame
import proofs.«161969_j40956808134940_1_alg».proof.Proof.KernelBlocks0
import proofs.«161969_j40956808134940_1_alg».proof.Proof.KernelBlocks1
import proofs.«161969_j40956808134940_1_alg».proof.Proof.Model
import proofs.«161969_j40956808134940_1_alg».proof.Proof.LibCastForms

set_option maxRecDepth 16384

noncomputable section

namespace Cert.KernelHost

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## What the first grid finds -/

/-- The neighbour means of the node features. -/
theorem first_mean (c : Dev nD) : V1 m ρ c main_v22 = Aggregate.mean128 (m ((c : Thread nD τ).loc main_arg0)) (Aggregate.srcOf (m ((c : Thread nD τ).loc main_arg1))) (Aggregate.dstOf (m ((c : Thread nD τ).loc main_arg1))) := by
  show StableHlo.after hostOps0 (W0 m ρ c) (Proc.devRef .tc main_v22) = _
  after_results_simp <;> rfl

/-- The node features themselves. -/
theorem first_x (c : Dev nD) : V1 m ρ c main_arg0 = (m ((c : Thread nD τ).loc main_arg0)) := by
  show StableHlo.after hostOps0 (W0 m ρ c) (Proc.devRef .tc main_arg0) = _
  after_results_simp <;> rfl

/-- The first weight matrix, transposed. -/
theorem first_wl (c : Dev nD) : V1 m ρ c main_v23 = transpose Cert.ReferenceIdeal.S128x256 [1, 0] (m ((c : Thread nD τ).loc main_arg2)) Cert.ReferenceIdeal.Gen.transposes_S256x128_S128x256_1_0 := by
  show StableHlo.after hostOps0 (W0 m ρ c) (Proc.devRef .tc main_v23) = _
  after_results_simp <;> rfl

/-- The second weight matrix, transposed. -/
theorem first_wr (c : Dev nD) : V1 m ρ c main_v24 = transpose Cert.ReferenceIdeal.S128x256 [1, 0] (m ((c : Thread nD τ).loc main_arg4)) Cert.ReferenceIdeal.Gen.transposes_S256x128_S128x256_1_0 := by
  show StableHlo.after hostOps0 (W0 m ρ c) (Proc.devRef .tc main_v24) = _
  after_results_simp <;> rfl

/-- The bias as a row: recast, which is the vector placed as the one row. -/
theorem first_row (c : Dev nD) :
    V1 m ρ c main_v25 = broadcastInDim Cert.ReferenceIdeal.S1x256 ![1] Cert.ReferenceIdeal.Gen.bcast_S256_S1x256_1 (m ((c : Thread nD τ).loc main_arg3)) := by
  have h : V1 m ρ c main_v25 = shapeCast S1x256 (m ((c : Thread nD τ).loc main_arg3)) shapeCasts_S256_S1x256 := by
    show StableHlo.after hostOps0 (W0 m ρ c) (Proc.devRef .tc main_v25) = _
    after_results_simp <;> rfl
  exact h.trans (LibCastForms.row_cast_eq_bcast _ _ _)

/-! ## What passes the first grid unchanged -/

/-- The edges' sources, computed before the first grid, are still there after it. -/
theorem src_kept (c : Dev nD) : W2 m ρ c (Proc.devRef .tc main_v1) = Aggregate.srcOf (m ((c : Thread nD τ).loc main_arg1)) :=
  (W2_of_ne m ρ c main_v1 (by decide)).trans (by
    show StableHlo.after hostOps0 (W0 m ρ c) (Proc.devRef .tc main_v1) = _
    after_results_simp <;> rfl)

/-- So are the destinations. -/
theorem dst_kept (c : Dev nD) : W2 m ρ c (Proc.devRef .tc main_v3) = Aggregate.dstOf (m ((c : Thread nD τ).loc main_arg1)) :=
  (W2_of_ne m ρ c main_v3 (by decide)).trans (by
    show StableHlo.after hostOps0 (W0 m ρ c) (Proc.devRef .tc main_v3) = _
    after_results_simp <;> rfl)

/-- Layer 2's first weight matrix is as launched. -/
theorem w2l_kept (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

/-- Layer 2's bias is as launched. -/
theorem b2_kept (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

/-- Layer 2's second weight matrix is as launched. -/
theorem w2r_kept (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

/-- The first grid's result: the hidden features of the model. -/
theorem hidden_value (c : Dev nD) :
    W2 m ρ c (Proc.devRef .tc main_v26) = Model.hidden (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 5).trans (KernelBlocks0.array (V1 m ρ) c)).trans ?_
  show Sage.hid (N := 50000) (K := 128) (C := 256) (V1 m ρ c main_v22) (V1 m ρ c main_arg0) (V1 m ρ c main_v23) (V1 m ρ c main_v24)
    (V1 m ρ c main_v25) = _
  rw [first_mean m ρ c, first_x m ρ c, first_wl m ρ c, first_wr m ρ c, first_row m ρ c]
  rfl

/-! ## What the second grid finds -/

/-- The neighbour means of the first grid's result, over the same edges. -/
theorem second_mean (c : Dev nD) : V3 m ρ c main_v45 = Aggregate.mean256 (W2 m ρ c (Proc.devRef .tc main_v26)) (W2 m ρ c (Proc.devRef .tc main_v1)) (W2 m ρ c (Proc.devRef .tc main_v3)) := by
  show StableHlo.after hostOps1 (W2 m ρ c) (Proc.devRef .tc main_v45) = _
  after_results_simp <;> rfl

/-- The first grid's result itself. -/
theorem second_h (c : Dev nD) : V3 m ρ c main_v26 = W2 m ρ c (Proc.devRef .tc main_v26) := by
  show StableHlo.after hostOps1 (W2 m ρ c) (Proc.devRef .tc main_v26) = _
  after_results_simp <;> rfl

/-- Layer 2's first weight matrix, transposed. -/
theorem second_wl (c : Dev nD) : V3 m ρ c main_v46 = transpose Cert.ReferenceIdeal.S256x128 [1, 0] (W2 m ρ c (Proc.devRef .tc main_arg5)) Cert.ReferenceIdeal.Gen.transposes_S128x256_S256x128_1_0 := by
  show StableHlo.after hostOps1 (W2 m ρ c) (Proc.devRef .tc main_v46) = _
  after_results_simp <;> rfl

/-- Layer 2's second weight matrix, transposed. -/
theorem second_wr (c : Dev nD) : V3 m ρ c main_v47 = transpose Cert.ReferenceIdeal.S256x128 [1, 0] (W2 m ρ c (Proc.devRef .tc main_arg7)) Cert.ReferenceIdeal.Gen.transposes_S128x256_S256x128_1_0 := by
  show StableHlo.after hostOps1 (W2 m ρ c) (Proc.devRef .tc main_v47) = _
  after_results_simp <;> rfl

/-- Layer 2's bias as a row. -/
theorem second_row (c : Dev nD) :
    V3 m ρ c main_v48 = broadcastInDim Cert.ReferenceIdeal.S1x128 ![1] Cert.ReferenceIdeal.Gen.bcast_S128_S1x128_1 (W2 m ρ c (Proc.devRef .tc main_arg6)) := by
  have h : V3 m ρ c main_v48 = shapeCast S1x128 (W2 m ρ c (Proc.devRef .tc main_arg6)) shapeCasts_S128_S1x128 := by
    show StableHlo.after hostOps1 (W2 m ρ c) (Proc.devRef .tc main_v48) = _
    after_results_simp <;> rfl
  exact h.trans (LibCastForms.row_cast_eq_bcast _ _ _)

/-- THE RESULT: after the run's last boundary the result buffer holds the model of the launch arguments. -/
theorem value (c : Dev nD) :
    W4 m ρ c (Proc.devRef .tc main_v49)
      = Model.model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 5).trans (KernelBlocks1.array (V3 m ρ) c)).trans ?_
  show Sage.out (N := 50000) (K := 256) (C := 128) (V3 m ρ c main_v45) (V3 m ρ c main_v26) (V3 m ρ c main_v46) (V3 m ρ c main_v47)
    (V3 m ρ c main_v48) = _
  rw [second_mean m ρ c, second_h m ρ c, second_wl m ρ c, second_wr m ρ c, second_row m ρ c, src_kept m ρ c, dst_kept m ρ c,
    w2l_kept m ρ c, b2_kept m ρ c, w2r_kept m ρ c, hidden_value m ρ c]
  rfl

end Cert.KernelHost

end
-- ==== Proof.RefLayers.lean ====
/-
  The reference computes the model.

  Each of its two layers is two matrix products against transposed weights, the bias stretched over the rows and added
  BETWEEN the two products, and (layer 1) a maximum with 0. Entry (r, c) of a product is the sum over the contracted
  coordinate; the stretched bias reads its one row; adding the bias between the products or after both is the same sum.
  The neighbour means are the aggregation's operations spelt out, and layer 2 reads layer 1's result.
-/
import proofs.«161969_j40956808134940_1_alg».proof.Proof.Gen.ReferenceIdeal.Read
import proofs.«161969_j40956808134940_1_alg».proof.Proof.Model
import proofs.«161969_j40956808134940_1_alg».proof.Proof.LibColumnBlocks
import proofs.«161969_j40956808134940_1_alg».proof.Proof.LibCastForms

noncomputable section

namespace Cert.RefLayers

open Idealize.ShloMosaic Idealize.ShloMosaic.ValueIdx Cert.ReferenceIdeal Cert.ReferenceIdeal.Gen Cert.ReferenceIdeal.Read
open Cert.Aggregate

variable (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal))
  (x4 : (⟨S256x128, .f32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal))

/-- Layer 1 with the rectifier, as the layer function of its stages. -/
theorem layer1 :
    val_main_v31 (F := Ideal) x0 x1 x2 x3 x4
      = Sage.hid (N := 50000) (K := 128) (C := 256) (val_main_v22 (F := Ideal) x0 x1) x0 (val_main_v23 (F := Ideal) x2)
          (val_main_v28 (F := Ideal) x4) (val_main_v25 (F := Ideal) x3) := by
  funext i
  obtain ⟨r, c, rfl⟩ : ∃ (r : Fin 50000) (c : Fin 256), i = ix2 r c := ⟨i 0, i 1, eq_ix2 i⟩
  rw [Sage.hid_ix2, ← Sage.lin_bias_first]
  have e1 := LibColumnBlocks.hostDot_apply (φ₁ := .f32) (φ₂ := .f32) dot_S50000x128_S128x256_S50000x256_1_0_0_1_n_n rfl rfl rfl rfl lhs_main_v24_0 rhs_main_v24_1
    (val_main_v22 (F := Ideal) x0 x1) (val_main_v23 (F := Ideal) x2) r c none
  have e2 := LibColumnBlocks.hostDot_apply (φ₁ := .f32) (φ₂ := .f32) dot_S50000x128_S128x256_S50000x256_1_0_0_1_n_n rfl rfl rfl rfl lhs_main_v29_0 rhs_main_v29_1
    x0 (val_main_v28 (F := Ideal) x4) r c none
  have e3 := LibCastForms.bcast_1b_ab_apply (val_main_v25 (F := Ideal) x3) bcast_S1x256_S50000x256_0_1 r c
  have e4 : val_main_call0_v0 (F := Ideal) (ix2 r c) = 0 := (val_main_call0_v0_apply _).trans Ideal.ofBits_zero_f32
  have s1 : val_main_v24 (F := Ideal) x0 x1 x2 (ix2 r c) = _ := e1
  have s2 : val_main_v29 (F := Ideal) x0 x4 (ix2 r c) = _ := e2
  have s3 : val_main_v26 (F := Ideal) x3 (ix2 r c) = _ := e3
  rw [val_main_v31_apply, val_main_v30_apply, val_main_v27_apply, s1, s2, s3, e4, Ideal.maximumf_def, Ideal.addf_def, Ideal.addf_def]

/-- Layer 2, as the layer function of its stages. -/
theorem layer2 :
    val_main_v58 (F := Ideal) x0 x1 x2 x3 x4 x5 x6 x7
      = Sage.out (N := 50000) (K := 256) (C := 128) (val_main_v50 (F := Ideal) x0 x1 x2 x3 x4) (val_main_v31 (F := Ideal) x0 x1 x2 x3 x4)
          (val_main_v51 (F := Ideal) x5) (val_main_v56 (F := Ideal) x7) (val_main_v53 (F := Ideal) x6) := by
  funext i
  obtain ⟨r, c, rfl⟩ : ∃ (r : Fin 50000) (c : Fin 128), i = ix2 r c := ⟨i 0, i 1, eq_ix2 i⟩
  rw [Sage.out_ix2, ← Sage.lin_bias_first]
  have e1 := LibColumnBlocks.hostDot_apply (φ₁ := .f32) (φ₂ := .f32) dot_S50000x256_S256x128_S50000x128_1_0_0_1_n_n rfl rfl rfl rfl lhs_main_v52_0 rhs_main_v52_1
    (val_main_v50 (F := Ideal) x0 x1 x2 x3 x4) (val_main_v51 (F := Ideal) x5) r c none
  have e2 := LibColumnBlocks.hostDot_apply (φ₁ := .f32) (φ₂ := .f32) dot_S50000x256_S256x128_S50000x128_1_0_0_1_n_n rfl rfl rfl rfl lhs_main_v57_0 rhs_main_v57_1
    (val_main_v31 (F := Ideal) x0 x1 x2 x3 x4) (val_main_v56 (F := Ideal) x7) r c none
  have e3 := LibCastForms.bcast_1b_ab_apply (val_main_v53 (F := Ideal) x6) bcast_S1x128_S50000x128_0_1 r c
  have s1 : val_main_v52 (F := Ideal) x0 x1 x2 x3 x4 x5 (ix2 r c) = _ := e1
  have s2 : val_main_v57 (F := Ideal) x0 x1 x2 x3 x4 x7 (ix2 r c) = _ := e2
  have s3 : val_main_v54 (F := Ideal) x6 (ix2 r c) = _ := e3
  rw [val_main_v58_apply, val_main_v55_apply, s1, s2, s3, Ideal.addf_def, Ideal.addf_def]

/-- Layer 1's neighbour means are the aggregation of the node features. -/
theorem means1 : val_main_v22 (F := Ideal) x0 x1 = mean128 x0 (srcOf x1) (dstOf x1) := rfl

/-- Layer 2's neighbour means are the aggregation of layer 1's result. -/
theorem means2 : val_main_v50 (F := Ideal) x0 x1 x2 x3 x4 = mean256 (val_main_v31 (F := Ideal) x0 x1 x2 x3 x4) (srcOf x1) (dstOf x1) := rfl

/-- The reference's result is the model of its arguments. -/
theorem result : val_main_v58 (F := Ideal) x0 x1 x2 x3 x4 x5 x6 x7 = Model.model x0 x1 x2 x3 x4 x5 x6 x7 := by
  rw [layer2, means2, layer1, means1]
  rfl

end Cert.RefLayers

end
-- ==== Proof.lean ====
/-
  Two graph-convolution layers with mean aggregation: a tiled kernel against a plain reference, over the extended reals.

  Both programs compute, from node features x [50000, 128], an edge list [2, 800000] and the weights and biases of two
  layers,
      h   = max( mean(x)·W1lᵀ + x·W1rᵀ + b1 , 0 )          [50000, 256]
      out =      mean(h)·W2lᵀ + h·W2rᵀ + b2                 [50000, 128]
  where mean(·) averages each node's incoming neighbours' rows (sum over the edges into the node, divided by the
  in-degree clamped below at 1). The aggregation is the same sequence of host operations in both programs and is carried
  as one function; only equal inputs giving equal means is used of it.

  The kernel program runs each layer's dense part on a grid of 25 row tiles of 2000 rows: a tile entry is the two
  products' entries (a product into a zero accumulator is the sum over the contracted coordinate; rounding the
  operands to bf16 is the identity on the extended reals) plus the bias row stretched over the tile, clamped at 0 in
  layer 1; the 25 written blocks tile the result array, so it holds the layer's function everywhere, and the second
  layer's host operations and grid read the first grid's result. The reference computes the same entries with the
  bias added between the two products instead of after them, which is the same sum because addition on the extended
  reals is commutative and associative — no finiteness of the inputs is needed, and the precondition is never opened.
  A bias vector recast as a one-row matrix (the kernel program) and the vector placed as that row (the reference) are
  one array. The word-level kernel needs only its frame; its idealization rewrote nothing.
-/
import proofs.«161969_j40956808134940_1_alg».proof.Proof.Gen.Kernel.Frame
import proofs.«161969_j40956808134940_1_alg».proof.Defs
import proofs.«161969_j40956808134940_1_alg».proof.Proof.Gen.KernelIdeal.Frame
import proofs.«161969_j40956808134940_1_alg».proof.Proof.Gen.ReferenceIdeal.Run
import proofs.«161969_j40956808134940_1_alg».proof.Proof.Gen.ReferenceIdeal.Read
import proofs.«161969_j40956808134940_1_alg».proof.Proof.Gen.Pre_finite_inputs
import proofs.«161969_j40956808134940_1_alg».proof.Proof.KernelRun
import proofs.«161969_j40956808134940_1_alg».proof.Proof.KernelHost
import proofs.«161969_j40956808134940_1_alg».proof.Proof.RefLayers

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the word-level kernel and its reading over the extended reals. -/
theorem preserves : Cert.preserves_Kernel_KernelIdeal := trivial

/-- From memories that agree on the arguments both programs end with the model of the arguments in their result
    buffers, and with the arguments unchanged. -/
theorem algebraic : Cert.algebraic_KernelIdeal_ReferenceIdeal := by
  intro m ρ m' ρ' _ hagree
  refine ⟨fun c => Cert.Model.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Gen.mem_uc Cert.KernelIdeal.main_v49 (by decide))).trans (Cert.KernelHost.value m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c)⟩)
      (Cert.KernelRun.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v58_eq, Cert.RefLayers.result, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
